-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S256x512 : Shape := ⟨2, ![256, 512]⟩
abbrev S1x256 : Shape := ⟨2, ![1, 256]⟩
abbrev S256x256 : Shape := ⟨2, ![256, 256]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S1024_S1024_000 : S1024.Pads (![0] : Fin 1 → Nat) ![0] ![0] S1024
  h_S_ : 0 < S_.numel
  shapeCasts_S1024_S1x1024 : S1024.ShapeCasts S1x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x1024.size a
  hwx0_0 : ∀ i : grid0.Coords, EltTy.bits .f32 = 32 ∨ (Rect.block (s := S8192x1024) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S1024x1024.size a
  hwx0_1 : ∀ i : grid0.Coords, EltTy.bits .f32 = 32 ∨ (Rect.block (s := S1024x1024) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x1024.size a
  hwx0_2 : ∀ i : grid0.Coords, EltTy.bits .f32 = 32 ∨ (Rect.block (s := S1x1024) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x1024.size a
  hwx0_3 : ∀ i : grid0.Coords, EltTy.bits .f32 = 32 ∨ (Rect.block (s := S8192x1024) S256x256.size (cc0_transform_3 i) (hinb0_3 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.LinearSpec.lean ====
/-
  The linear layer as ONE function of its three argument arrays, over the extended reals:

      y (r, c) = (∑ k < 1024, x (r, k) · w (c, k)) + b c          x : 8192 × 1024, w : 1024 × 1024 (one row per output
                                                                   feature), b : 1024, y : 8192 × 1024.

  Two programs are set against it. One takes the whole sum over `k` in a single matrix product into a zero
  accumulator and adds the bias. The other cuts `k` into two halves of 512: it starts an accumulator at zero, adds
  the first half's product, then the second half's, then the bias. Addition of extended reals is associative and has
  `0` as its unit, and a sum over `Fin (512 + 512)` is the sum over the first 512 indices plus the sum over the last
  512 (`halves`), so the two arrangements are the same number at every entry, infinite entries included: nothing here
  needs the inputs to be finite.
-/
import Idealize.ShloMosaic.PureOps.Ideal
import Idealize.ShloMosaic.Lib.ValueIdx

noncomputable section

namespace Cert.Linear

open Idealize.ShloMosaic Idealize.ShloMosaic.ValueIdx
open scoped BigOperators

/-- Entry `(r, c)` of the layer's result. -/
def entry (x : (⟨2, ![8192, 1024]⟩ : Shape).Idx → EReal) (w : (⟨2, ![1024, 1024]⟩ : Shape).Idx → EReal)
    (b : (⟨1, ![1024]⟩ : Shape).Idx → EReal) (r : Fin 8192) (c : Fin 1024) : EReal :=
  (∑ k : Fin 1024, x (ix2 r k) * w (ix2 c k)) + b (ix1 c)

/-- The layer's result array. -/
def linear (x : (⟨2, ![8192, 1024]⟩ : Shape).Idx → EReal) (w : (⟨2, ![1024, 1024]⟩ : Shape).Idx → EReal)
    (b : (⟨1, ![1024]⟩ : Shape).Idx → EReal) : (⟨2, ![8192, 1024]⟩ : Shape).Idx → EReal :=
  fun i => entry x w b (i 0) (i 1)

theorem linear_ix2 (x : (⟨2, ![8192, 1024]⟩ : Shape).Idx → EReal) (w : (⟨2, ![1024, 1024]⟩ : Shape).Idx → EReal)
    (b : (⟨1, ![1024]⟩ : Shape).Idx → EReal) (r : Fin 8192) (c : Fin 1024) :
    linear x w b (ix2 r c) = entry x w b r c := rfl

/-- Column `k` of the first half and of the second half of the contracted axis. -/
def lo (k : Fin 512) : Fin 1024 := ⟨k.val, by have := k.isLt; omega⟩
def hi (k : Fin 512) : Fin 1024 := ⟨512 + k.val, by have := k.isLt; omega⟩

/-- The accumulation in two halves from zero, then the bias: the same entry. -/
theorem halves (x : (⟨2, ![8192, 1024]⟩ : Shape).Idx → EReal) (w : (⟨2, ![1024, 1024]⟩ : Shape).Idx → EReal)
    (b : (⟨1, ![1024]⟩ : Shape).Idx → EReal) (r : Fin 8192) (c : Fin 1024) :
    ((0 + ∑ k : Fin 512, x (ix2 r (lo k)) * w (ix2 c (lo k))) + ∑ k : Fin 512, x (ix2 r (hi k)) * w (ix2 c (hi k)))
        + b (ix1 c) = entry x w b r c := by
  unfold entry
  rw [zero_add, Fin.sum_univ_add (a := 512) (b := 512) (fun k : Fin 1024 => x (ix2 r k) * w (ix2 c k))]
  rfl

end Cert.Linear

end
-- ==== Proof.KernelBlocks.lean ====
/-
  What the single-product program leaves in its result array, over the extended reals.

  The grid has eight points. At point `t` the body sees rows `1024·t … 1024·t + 1023` of `x`, all of `w` and the bias
  as one row, and stores `(x-block @ w.T) + bias` over its whole 1024 × 1024 output block: one matrix product over the
  full contracted axis into a zero accumulator (the roundings to bf16 on the way in are the identity on extended
  reals), then the bias row added to every row. Entry `(p, q)` of that block is
  `(∑ k, x (1024·t + p, k) · w (q, k)) + b q`, which is entry `(1024·t + p, q)` of `Cert.Linear.linear x w b`; the eight
  output blocks are the eight row bands of the result, so the array ends holding `linear x w b`.
-/
import proofs.«119774_g2000600214737609_pallasbulk_865_2_alg».proof.Proof.Gen.KernelIdeal.Value
import proofs.«119774_g2000600214737609_pallasbulk_865_2_alg».proof.Proof.LibMatmulLastAxis
import proofs.«119774_g2000600214737609_pallasbulk_865_2_alg».proof.Proof.LinearSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The product contracts the last axis of both operands. -/
theorem dims : MatmulLastAxis.IsLastAxis dot_S1024x1024_S1024x1024_S1024x1024_1_1_0_0_n_n :=
  ⟨rfl, rfl, rfl, rfl, rfl, rfl⟩

/-- The stored value at entry `(p, q)` of the block, from the three loaded blocks: the full-depth sum of products
    plus the bias row's entry `q`. -/
theorem stored_apply (v0 v2 : Vec Ideal S1024x1024 .f32) (v5 : Vec Ideal S1x1024 .f32) (p q : Fin 1024) :
    k0_pay1 (F := Ideal) v0 v2 v5 (ix2 p q)
      = (∑ k : Fin 1024, v0 (ix2 p k) * v2 (ix2 q k)) + v5 (ix2 (0 : Fin 1) q) := by
  unfold k0_pay1
  refine (addf_apply _ _ _).trans ?_
  refine congrArg₂ (· + ·) ?_ ?_
  · exact MatmulLastAxis.matmul_zero_apply dims none _ _ p q
  · rw [shapeCast_self]
    exact broadcastTo_1b_ab_apply v5 _ p q

/-- How the four windows move over the eight points: the `x` window and the output window step one block of rows
    per point, the `w` and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias as the region finds it: the argument laid out as one row. -/
theorem bias_row (c : Dev nD) :
    (V m c main_v0 : S1x1024.Idx → EReal) = shapeCast S1x1024 (m ((c : Thread nD τ).loc main_arg2)) shapeCasts_S1024_S1x1024 := by
  dsimp only [Gen.V, Gen.hostOps0]; after_results; rfl

/-- The `x` block at point `t`, entry `(p, k)`: row `1024·t + p` of `x`. -/
theorem x_block (c : Dev nD) (t : Fin cfg0.N) (p k : Fin 1024) (r : Fin 8192) (hr : r.val = t.val * 1024 + p.val) :
    (iblk m c 0 t : Vec Ideal S1024x1024 .f32) (ix2 p k) = m ((c : Thread nD τ).loc main_arg0) (ix2 r k) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The `w` block at any point is all of `w`. -/
theorem w_block (c : Dev nD) (t : Fin cfg0.N) (q k : Fin 1024) :
    (iblk m c 1 t : Vec Ideal S1024x1024 .f32) (ix2 q k) = m ((c : Thread nD τ).loc main_arg1) (ix2 q k) := by
  obtain ⟨-, -, e10, e11, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

/-- The bias block at any point, entry `(0, q)`: `b q`. -/
theorem b_block (c : Dev nD) (t : Fin cfg0.N) (q : Fin 1024) :
    (iblk m c 2 t : Vec Ideal S1x1024 .f32) (ix2 (0 : Fin 1) q) = m ((c : Thread nD τ).loc main_arg2) (ix1 q) := by
  obtain ⟨-, -, -, -, e20, e21, -⟩ := idx_facts t
  unfold iblk
  rw [View.read_apply]
  show V m c main_v0 _ = _
  rw [bias_row]
  refine Eq.trans ?_ (shapeCast_a_1a_apply (m ((c : Thread nD τ).loc main_arg2)) shapeCasts_S1024_S1x1024 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- The result array: the linear layer of the three arguments. -/
abbrev result (c : Dev nD) : Buf (Elt Ideal) ((c : Thread nD τ).loc main_v1) :=
  Cert.Linear.linear (m ((c : Thread nD τ).loc main_arg0)) (m ((c : Thread nD τ).loc main_arg1))
    (m ((c : Thread nD τ).loc main_arg2))

/-- What point `t` writes back is block `t` of the linear layer. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1024x1024) hz, View.ld_unit_zero (S := S1x1024) hz]
  obtain ⟨-, -, -, -, -, -, e30, e31⟩ := idx_facts t
  have hN : cfg0.N = 8 := N_0
  have ht : t.val < 8 := lt_of_lt_of_eq t.isLt hN
  funext y
  obtain ⟨p, q, rfl⟩ : ∃ (p q : Fin 1024), y = ix2 p q := ⟨y 0, y 1, eq_ix2 y⟩
  obtain ⟨r, hr⟩ : ∃ r : Fin 8192, r.val = t.val * 1024 + p.val := ⟨⟨t.val * 1024 + p.val, by have := p.isLt; omega⟩, rfl⟩
  refine (stored_apply (iblk m c 0 t) (iblk m c 1 t) (iblk m c 2 t) p q).trans ?_
  rw [View.read_apply]
  have hemb : ((cfg0.win 3).blk t).view.emb (ix2 p q) = ix2 r q := by
    funext a; apply Fin.ext
    match a with
    | ⟨0, _⟩ => show win0_3.index t (0 : Fin 2) * 1024 + 1 * p.val = r.val; omega
    | ⟨1, _⟩ => show win0_3.index t (1 : Fin 2) * 1024 + 1 * q.val = q.val; omega
  rw [hemb]
  show _ = Cert.Linear.entry _ _ _ r q
  unfold Cert.Linear.entry
  rw [b_block m c t q]
  refine congrArg (· + _) (Finset.sum_congr rfl fun k _ => ?_)
  rw [x_block m c t p k r hr, w_block m c t q k]

/-- An index is in point `t`'s output block iff each coordinate is in the block's range. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Row `r` lies in the block of point `r / 1024`. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The array after the run is the linear layer of the arguments. -/
theorem final (c : Dev nD) : (dats m 0 c).arrAt 3 cfg0.N = result m c :=
  (dats m 0 c).arrAt_eq_of_cover 3 (result m c) (fun t _ => flushed_eq m c t) cover

/-- The run: the result array at the linear layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefBlocks.lean ====
/-
  What the tiled program leaves in its result array, over the extended reals.

  Its grid is 32 × 4 × 2: a band of 256 rows of `x`, a band of 256 rows of `w` (256 output features), and a half of
  the contracted axis (512 of its 1024 columns). Point number `n` is row band `n / 8`, feature band `n / 2 % 4`,
  half `n % 2`. A 256 × 256 accumulator is kept between the two halves of each (row band, feature band):

    at the first half it is set to zero and then `zero + (x-block @ w-block.T)` is left in it, nothing is stored to
      the output block and nothing is written back;
    at the second half `acc + (x-block @ w-block.T)` is left in it, and `that + bias-block` is stored over the whole
      output block, which is then written back.

  So entry `(p, q)` of the block written back at an odd point `n` is
  `((0 + ∑ k < 512, x (r, k) · w (c, k)) + ∑ k < 512, x (r, 512 + k) · w (c, 512 + k)) + b c` with
  `r = 256·(n / 8) + p` and `c = 256·(n / 2 % 4) + q`: entry `(r, c)` of `Cert.Linear.linear x w b`
  (`Cert.Linear.halves`). The 128 blocks written back tile the result, so the array ends holding `linear x w b`.
  The bias reaches the region padded by zero entries on both sides (no entry added) and laid out as one row.
-/
import proofs.«119774_g2000600214737609_pallasbulk_865_2_alg».proof.Proof.Gen.ReferenceIdeal.Value
import proofs.«119774_g2000600214737609_pallasbulk_865_2_alg».proof.Proof.LibMatmulLastAxis
import proofs.«119774_g2000600214737609_pallasbulk_865_2_alg».proof.Proof.LinearSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-! ## What each of the two kinds of point leaves, as values -/

section Pieces

variable {F : FTy → Type} [FloatOps F]

/-- A first-half point leaves in the accumulator one accumulation step from the zero block: the zero block is stored,
    read back, and the step's result stored over it. -/
theorem carried_A (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond0_0 i) (hc1 : ¬cond0_1 i)
    (x0 : Vec F S256x512 .f32) (x1 : Vec F S256x512 .f32) (x2 : Vec F S1x256 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S256x256) hz, View.readCov_unit_zero (S := S256x256) _ hz]
  simp only [View.readAt_eq_ld, harg3.read_unread, harg4.read_unread, View.ld_unit_zero (S := S256x512) hz]

/-- A second-half point stores over its output block the bias added to one accumulation step from what the
    accumulator held. -/
theorem stored_B (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond0_0 i) (hc1 : cond0_1 i)
    (x0 : Vec F S256x512 .f32) (x1 : Vec F S256x512 .f32) (x2 : Vec F S1x256 .f32) (xs0 : Vec F S256x256 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz, View.readCov_unit_zero (S := S256x256) _ hz]
  simp only [View.readAt_eq_ld, harg3.read_unread, harg4.read_unread, harg5.read_unread, harg7.read_unread,
    View.ld_unit_zero (S := S256x256) hz, View.ld_unit_zero (S := S256x512) hz, View.ld_unit_zero (S := S1x256) hz]

end Pieces

/-! ## The three stored values read at an entry -/

/-- The block product contracts the last axis of both operands. -/
theorem dims : MatmulLastAxis.IsLastAxis dot_S256x512_S256x512_S256x256_1_1_0_0_n_n :=
  ⟨rfl, rfl, rfl, rfl, rfl, rfl⟩

/-- The zero block. -/
theorem zero_apply (p q : Fin 256) : k0_pay1 (F := Ideal) (ix2 p q) = 0 := by
  unfold k0_pay1
  refine (congrFun (shapeCast_self _ _) _).trans ?_
  exact Ideal.ofBits_zero_f32

/-- One accumulation step at entry `(p, q)`: what was there plus the half-depth sum of products. -/
theorem step_apply (v3 : Vec Ideal S256x256 .f32) (v4 v5 : Vec Ideal S256x512 .f32) (p q : Fin 256) :
    k0_pay2 (F := Ideal) v3 v4 v5 (ix2 p q) = v3 (ix2 p q) + ∑ k : Fin 512, v4 (ix2 p k) * v5 (ix2 q k) := by
  unfold k0_pay2
  refine (congrFun (shapeCast_self _ _) _).trans ?_
  refine (addf_apply _ _ _).trans ?_
  exact congrArg (v3 (ix2 p q) + ·) (MatmulLastAxis.matmul_zero_apply dims none v4 v5 p q)

/-- The bias row added at entry `(p, q)`. -/
theorem bias_apply (v14 : Vec Ideal S256x256 .f32) (v15 : Vec Ideal S1x256 .f32) (p q : Fin 256) :
    k0_pay3 (F := Ideal) v14 v15 (ix2 p q) = v14 (ix2 p q) + v15 (ix2 (0 : Fin 1) q) := by
  unfold k0_pay3
  refine (addf_apply _ _ _).trans ?_
  refine congrArg (v14 (ix2 p q) + ·) ?_
  rw [shapeCast_self]
  exact broadcastTo_1b_ab_apply v15 _ p q

/-- Two steps from zero and the bias, at entry `(p, q)`, from the five blocks that enter. -/
theorem two_steps_apply (xs ws xt wt : Vec Ideal S256x512 .f32) (bt : Vec Ideal S1x256 .f32) (p q : Fin 256) :
    k0_pay3 (F := Ideal) (k0_pay2 (k0_pay2 (k0_pay1 (F := Ideal)) xs ws) xt wt) bt (ix2 p q)
      = ((0 + ∑ k : Fin 512, xs (ix2 p k) * ws (ix2 q k)) + ∑ k : Fin 512, xt (ix2 p k) * wt (ix2 q k))
          + bt (ix2 (0 : Fin 1) q) := by
  rw [bias_apply, step_apply, step_apply, zero_apply]

/-! ## The run's contents, point by point -/

variable (m : (ℓ : Loc nD τ sig) → Buf (Elt Ideal) ℓ) (ρ : Dev nD → PrngReg)

/-- After a first-half point `s` the accumulator holds one step from zero over that point's blocks. -/
theorem acc_first (c : Dev nD) (s : Fin cfg0.N) (h0 : s.val % 2 = 0) (h1 : ¬s.val % 2 = 1) :
    (outsAt0 m c s.val s.isLt).2 = k0_pay2 (k0_pay1 (F := Ideal)) (iblk m c 0 s) (iblk m c 1 s) := by
  rw [outsAt0_A m c s h0 h1]
  dsimp only
  exact carried_A (F := Ideal) c (grid0.coords s) (ms0_0 s) (hs0_0 s) (ms0_1 s) (hs0_1 s) (ms0_2 s) (hs0_2 s) (ms0_3 s) (hs0_3 s) scM0_0 (Memref.isWhole_whole _) ((hcond0_0 s).mpr h0) (fun h => h1 ((hcond0_1 s).mp h))
    (iblk m c 0 s) (iblk m c 1 s) (iblk m c 2 s)

/-- After a second-half point `t` the output block holds the bias added to two steps from zero: over the blocks of the
    point before, then over its own. -/
theorem out_second (c : Dev nD) (t : Fin cfg0.N) (h0 : ¬t.val % 2 = 0) (h1 : t.val % 2 = 1)
    (s : Fin cfg0.N) (hs : s.val = t.val - 1) :
    (outsAt0 m c t.val t.isLt).1
      = k0_pay3 (k0_pay2 (k0_pay2 (k0_pay1 (F := Ideal)) (iblk m c 0 s) (iblk m c 1 s)) (iblk m c 0 t) (iblk m c 1 t))
          (iblk m c 2 t) := by
  have hs0 : s.val % 2 = 0 := by omega
  have hs1 : ¬s.val % 2 = 1 := by omega
  have e : ∀ (n : ℕ) (hn : n < cfg0.N), n = s.val → (outsAt0 m c n hn).2 = (outsAt0 m c s.val s.isLt).2 := by
    intro n hn e; subst e; rfl
  rw [outsAt0_B m c t h0 h1]
  dsimp only
  refine (stored_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) _).trans ?_
  rw [e _ _ hs.symm, acc_first m c s hs0 hs1]

/-! ## The blocks as entries of the arguments -/

/-- How the four windows move over the 256 points. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The bias as the region finds it, entry `(0, q)` of its one row: `b q`. The padding adds no entry, and the
    reshape keeps the order. -/
theorem bias_entry (c : Dev nD) (q : Fin 1024) :
    (V m c main_v1 : S1x1024.Idx → EReal) (ix2 (0 : Fin 1) q) = m ((c : Thread nD τ).loc main_arg2) (ix1 q) := by
  have e : (V m c main_v1 : S1x1024.Idx → EReal)
      = shapeCast S1x1024 (pad S1024 ![0] ![0] ![0] (m ((c : Thread nD τ).loc main_arg2))
          (sitofp (F := Ideal) .f32 (constantI S_ 32 0#32)) pads_S1024_S1024_000 h_S_) shapeCasts_S1024_S1x1024 := by
    dsimp only [Gen.V]
    simp only [Gen.hostOps0, Gen.hostOps0_1, Gen.hostOps0_2, List.flatten_cons, List.flatten_nil, List.append_nil,
      List.cons_append, List.nil_append]
    after_results; rfl
  rw [e]
  refine (shapeCast_a_1a_apply _ shapeCasts_S1024_S1x1024 (0 : Fin 1) q).trans ?_
  exact pad_apply_of_inside ![0] ![0] ![0] _ _ pads_S1024_S1024_000 h_S_ (ix1 q) (ix1 q) (fun a => by
    match a with
    | ⟨0, _⟩ => show q.val = 0 + q.val * (0 + 1); omega)

/-- The `x` block at point `t`, entry `(p, k)`. -/
theorem x_block (c : Dev nD) (t : Fin cfg0.N) (p : Fin 256) (k : Fin 512) (r : Fin 8192) (kc : Fin 1024)
    (hr : r.val = t.val / 8 * 256 + p.val) (hk : kc.val = t.val % 2 * 512 + k.val) :
    (iblk m c 0 t : Vec Ideal S256x512 .f32) (ix2 p k) = m ((c : Thread nD τ).loc main_arg0) (ix2 r kc) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 512 + 1 * k.val = kc.val; omega

/-- The `w` block at point `t`, entry `(q, k)`. -/
theorem w_block (c : Dev nD) (t : Fin cfg0.N) (q : Fin 256) (k : Fin 512) (cq : Fin 1024) (kc : Fin 1024)
    (hc : cq.val = t.val / 2 % 4 * 256 + q.val) (hk : kc.val = t.val % 2 * 512 + k.val) :
    (iblk m c 1 t : Vec Ideal S256x512 .f32) (ix2 q k) = m ((c : Thread nD τ).loc main_arg1) (ix2 cq kc) := by
  obtain ⟨-, -, e10, e11, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = cq.val; omega
  | ⟨1, _⟩ => show win0_1.index t (1 : Fin 2) * 512 + 1 * k.val = kc.val; omega

/-- The bias block at point `t`, entry `(0, q)`. -/
theorem b_block (c : Dev nD) (t : Fin cfg0.N) (q : Fin 256) (cq : Fin 1024)
    (hc : cq.val = t.val / 2 % 4 * 256 + q.val) :
    (iblk m c 2 t : Vec Ideal S1x256 .f32) (ix2 (0 : Fin 1) q) = m ((c : Thread nD τ).loc main_arg2) (ix1 cq) := by
  obtain ⟨-, -, -, -, e20, e21, -⟩ := idx_facts t
  unfold iblk
  rw [View.read_apply]
  show V m c main_v1 _ = _
  refine Eq.trans ?_ (bias_entry m c cq)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = cq.val; omega

/-! ## The array after the run -/

/-- The result array: the linear layer of the three arguments. -/
abbrev result (c : Dev nD) : Buf (Elt Ideal) ((c : Thread nD τ).loc main_v2) :=
  Cert.Linear.linear (m ((c : Thread nD τ).loc main_arg0)) (m ((c : Thread nD τ).loc main_arg1))
    (m ((c : Thread nD τ).loc main_arg2))

/-- What a second-half point writes back is its block of the linear layer. -/
theorem flushed_eq (c : Dev nD) (t : Fin cfg0.N) (hf : (cfg0.win 3).flush t = true) :
    (dats m 0 c).flushed 3 t = ((cfg0.win 3).blk t).view.read (Elt Ideal) (result m c) := by
  have hN : cfg0.N = 256 := N_0
  have ht : t.val < 256 := lt_of_lt_of_eq t.isLt hN
  have h1 : t.val % 2 = 1 := (flush0_3 t).mp hf
  have h0 : ¬t.val % 2 = 0 := by omega
  obtain ⟨s, hs⟩ : ∃ s : Fin cfg0.N, s.val = t.val - 1 := ⟨⟨t.val - 1, by omega⟩, rfl⟩
  rw [Value.flushed3, out_second m c t h0 h1 s hs]
  obtain ⟨-, -, -, -, -, -, a30, a31⟩ := idx_facts t
  funext y
  obtain ⟨p, q, rfl⟩ : ∃ (p q : Fin 256), y = ix2 p q := ⟨y 0, y 1, eq_ix2 y⟩
  have hp := p.isLt
  have hq := q.isLt
  obtain ⟨r, hr⟩ : ∃ r : Fin 8192, r.val = t.val / 8 * 256 + p.val := ⟨⟨t.val / 8 * 256 + p.val, by omega⟩, rfl⟩
  obtain ⟨cq, hc⟩ : ∃ cq : Fin 1024, cq.val = t.val / 2 % 4 * 256 + q.val := ⟨⟨t.val / 2 % 4 * 256 + q.val, by omega⟩, rfl⟩
  refine (two_steps_apply (iblk m c 0 s) (iblk m c 1 s) (iblk m c 0 t) (iblk m c 1 t) (iblk m c 2 t) p q).trans ?_
  rw [View.read_apply]
  have hemb : ((cfg0.win 3).blk t).view.emb (ix2 p q) = ix2 r cq := by
    funext a; apply Fin.ext
    match a with
    | ⟨0, _⟩ => show win0_3.index t (0 : Fin 2) * 256 + 1 * p.val = r.val; omega
    | ⟨1, _⟩ => show win0_3.index t (1 : Fin 2) * 256 + 1 * q.val = cq.val; omega
  rw [hemb]
  show _ = Cert.Linear.entry _ _ _ r cq
  refine Eq.trans ?_ (Cert.Linear.halves _ _ _ r cq)
  refine congrArg₂ (· + ·) (congrArg₂ (· + ·) (congrArg (0 + ·) (Finset.sum_congr rfl fun k _ => ?_))
    (Finset.sum_congr rfl fun k _ => ?_)) (b_block m c t q cq hc)
  · have hk := k.isLt
    rw [x_block m c s p k r (Cert.Linear.lo k) (by omega) (by show k.val = _; omega),
      w_block m c s q k cq (Cert.Linear.lo k) (by omega) (by show k.val = _; omega)]
  · have hk := k.isLt
    rw [x_block m c t p k r (Cert.Linear.hi k) hr (by show 512 + k.val = _; omega),
      w_block m c t q k cq (Cert.Linear.hi k) hc (by show 512 + k.val = _; omega)]

/-- An index is in point `t`'s output block iff each coordinate is in the block's range. -/
theorem mem_blk (t : Fin cfg0.N) (i : S8192x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v2).slice (win0_3.rect t)).set ↔ _
  rw [View.set_slice_whole, Rect.mem_set_unit]
  exact Iff.rfl

/-- Entry `(r, c)` lies in the block written back at the second-half point of row band `r / 256` and feature band
    `c / 256`. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 256 := N_0
  obtain ⟨t, ht⟩ : ∃ t : Fin cfg0.N, t.val = (i 0).val / 256 * 8 + (i 1).val / 256 * 2 + 1 :=
    ⟨⟨(i 0).val / 256 * 8 + (i 1).val / 256 * 2 + 1, by rw [hN]; omega⟩, rfl⟩
  obtain ⟨-, -, -, -, -, -, e30, e31⟩ := idx_facts t
  refine ⟨t, (flush0_3 t).mpr (by omega), ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 256 ≤ (i 1).val ∧ (i 1).val < win0_3.index t (1 : Fin 2) * 256 + 256
    omega

/-- The array after the run is the linear layer of the arguments. -/
theorem final (c : Dev nD) : (dats m 0 c).arrAt 3 cfg0.N = result m c :=
  (dats m 0 c).arrAt_eq_of_cover 3 (result m c) (fun t hf => flushed_eq m c t hf) cover

/-- The run: the result array at the linear layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.Whole

end
-- ==== Proof.lean ====
/-
  A linear layer `y = x @ w.T + b` (x : 8192 × 1024, w : 1024 × 1024 with one row per output feature, b : 1024) computed
  two ways, equal as extended reals at every entry.

  One program takes, for each band of 1024 rows of `x`, a single matrix product over the whole contracted axis into a
  zero accumulator and adds the bias row (`Cert.KernelIdeal.Whole.run`). The other cuts rows and output features into
  bands of 256 and the contracted axis into two halves of 512, keeps a 256 × 256 accumulator across the two halves —
  zero, plus the first half's product, plus the second half's — and adds the bias at the end
  (`Cert.ReferenceIdeal.Whole.run`). Both arrays end at `Cert.Linear.linear x w b`: entry `(r, c)` is
  `(∑ k < 1024, x (r, k) · w (c, k)) + b c`. The two arrangements differ by `0 + s = s` and by splitting the sum over
  1024 indices into the sums over its two halves, which hold for all extended reals, so the inputs' finiteness is
  never used. Rounding the operands to bf16 before the product is the identity on extended reals, and the ideal pass
  rewrote nothing, so the statement about it is `True`. Each program runs without fault and leaves its arguments as
  they were.
-/
import proofs.«119774_g2000600214737609_pallasbulk_865_2_alg».proof.Defs
import proofs.«119774_g2000600214737609_pallasbulk_865_2_alg».proof.Proof.Gen.Kernel
import proofs.«119774_g2000600214737609_pallasbulk_865_2_alg».proof.Proof.Gen.Kernel.Frame
import proofs.«119774_g2000600214737609_pallasbulk_865_2_alg».proof.Proof.Gen.KernelIdeal
import proofs.«119774_g2000600214737609_pallasbulk_865_2_alg».proof.Proof.Gen.KernelIdeal.Frame
import proofs.«119774_g2000600214737609_pallasbulk_865_2_alg».proof.Proof.Gen.ReferenceIdeal
import proofs.«119774_g2000600214737609_pallasbulk_865_2_alg».proof.Proof.Gen.ReferenceIdeal.Frame
import proofs.«119774_g2000600214737609_pallasbulk_865_2_alg».proof.Proof.Gen.Pre_finite_inputs
import proofs.«119774_g2000600214737609_pallasbulk_865_2_alg».proof.Proof.KernelBlocks
import proofs.«119774_g2000600214737609_pallasbulk_865_2_alg».proof.Proof.RefBlocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation. -/
theorem preserves : Cert.preserves_Kernel_KernelIdeal := trivial

/-- Both result arrays end at the linear layer of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  unfold Cert.ReferenceIdeal.Whole.result Cert.KernelIdeal.Whole.result
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
